-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S256x512 : Shape := ⟨2, ![256, 512]⟩
abbrev S512 : Shape := ⟨1, ![512]⟩
abbrev S512x2 : Shape := ⟨2, ![512, 2]⟩
abbrev S2 : Shape := ⟨1, ![2]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg6 : FVec F S512 .f32) (main_arg7 : FVec F S512x2 .f32) (main_arg8 : FVec F S2 .f32) (main_v33 : IVec S_ 1) : IVec S_ 1 :=
  let main_v34 : FVec F S512x2 .f32 := Host.absf main_arg7
  let main_cst_12 : FVec F S_ .f32 := constant S_ .f32 0x7F800000#32
  let main_v35 : FVec F S512x2 .f32 := broadcastInDim S512x2 ![] bcast_S_S512x2 main_cst_12
  let main_v36 : IVec S512x2 1 := cmpf .olt main_v34 main_v35
  let main_c_13 : IVec S_ 1 := constantI S_ 1 1#1
  let main_v37 : IVec S_ 1 := (fun x v => Host.reduce IntOp.andi x v reducesTo_S512x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_cst_16 : FVec F S_ .f32 := constant S_ .f32 0x00000000#32
  let main_v44 : FVec F S512 .f32 := broadcastInDim S512 ![] bcast_S_S512 main_cst_16
  let main_v45 : IVec S512 1 := cmpf .oge main_arg6 main_v44
  let main_c_17 : IVec S_ 1 := constantI S_ 1 1#1
  let main_v46 : IVec S_ 1 := (fun x v => Host.reduce IntOp.andi x v reducesTo_S512_S_d0 h_S_) main_v45 main_c_17
  let main_v47 : IVec S_ 1 := andi main_v43 main_v46
  main_v47

def fn_part1 {F : FTy → Type} [FloatOps F] (main_arg4 : FVec F S512 .f32) (main_arg5 : FVec F S512 .f32) (main_arg6 : FVec F S512 .f32) (main_arg7 : FVec F S512x2 .f32) (main_arg8 : FVec F S2 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg6 main_arg7 main_arg8 main_v33

def fn {F : FTy → Type} [FloatOps F] (main_arg0 : FVec F S16x2048x256 .f32) (main_arg1 : FVec F S256x512 .f32) (main_arg2 : FVec F S512 .f32) (main_arg3 : FVec F S512 .f32) (main_arg4 : FVec F S512 .f32) (main_arg5 : FVec F S512 .f32) (main_arg6 : FVec F S512 .f32) (main_arg7 : FVec F S512x2 .f32) (main_arg8 : FVec F S2 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_v13 main_v16
-- ==== Kernel.lean ====
abbrev S16x2048x256 : Shape := ⟨3, ![16, 2048, 256]⟩
abbrev S256x512 : Shape := ⟨2, ![256, 512]⟩
abbrev S512 : Shape := ⟨1, ![512]⟩
abbrev S512x2 : Shape := ⟨2, ![512, 2]⟩
abbrev S2 : Shape := ⟨1, ![2]⟩
abbrev S32768x256 : Shape := ⟨2, ![32768, 256]⟩
abbrev S1x512 : Shape := ⟨2, ![1, 512]⟩
abbrev S1x2 : Shape := ⟨2, ![1, 2]⟩
abbrev S32768x2 : Shape := ⟨2, ![32768, 2]⟩
abbrev S2048x256 : Shape := ⟨2, ![2048, 256]⟩
abbrev S2048x2 : Shape := ⟨2, ![2048, 2]⟩
abbrev S2048x512 : Shape := ⟨2, ![2048, 512]⟩
abbrev S16x2048x2 : Shape := ⟨3, ![16, 2048, 2]⟩

abbrev nBuf : Space → Nat
  | .hbm => 18
  | .vmem => 12
  | .smem => 0
  | _ => 0

abbrev bufTy : (tb : Table) → Fin (tcTables nBuf tb) → BufTy
  | .hbm, ⟨0, _⟩ => ⟨S16x2048x256, .f32⟩
  | .hbm, ⟨1, _⟩ => ⟨S256x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x2, .f32⟩
  | .hbm, ⟨8, _⟩ => ⟨S2, .f32⟩
  | .hbm, ⟨9, _⟩ => ⟨S32768x256, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x2, .f32⟩
  | .hbm, ⟨16, _⟩ => ⟨S32768x2, .f32⟩
  | .hbm, ⟨17, _⟩ => ⟨S16x2048x2, .f32⟩
  | .local _ .vmem, ⟨0, _⟩ => ⟨S2048x256, .f32⟩
  | .local _ .vmem, ⟨1, _⟩ => ⟨S2048x256, .f32⟩
  | .local _ .vmem, ⟨2, _⟩ => ⟨S256x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x2, .f32⟩
  | .local _ .vmem, ⟨9, _⟩ => ⟨S1x2, .f32⟩
  | .local _ .vmem, ⟨10, _⟩ => ⟨S2048x2, .f32⟩
  | .local _ .vmem, ⟨11, _⟩ => ⟨S2048x2, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S16x2048x256_S32768x256 : S16x2048x256.ShapeCasts S32768x256
  shapeCasts_S512_S1x512 : S512.ShapeCasts S1x512
  shapeCasts_S2_S1x2 : S2.ShapeCasts S1x2
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x2_S512x2_0_0 : ∀ a, (![0, 0] : Fin 2 → Nat) a + S512x2.size a ≤ S512x2.size a
  h_S512x2 : 0 < S512x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  shapeCasts_S32768x2_S16x2048x2 : S32768x2.ShapeCasts S16x2048x2
  dot_S2048x256_S256x512_S2048x512_1_0_0_1_n_n_wf : DotDims.WF S2048x256 S256x512 S2048x512 [1] [0] [0] [1] [] []
  dot_S2048x512_S512x2_S2048x2_1_0_0_1_n_n_wf : DotDims.WF S2048x512 S512x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2.size a ≤ S512x2.size a
  hwx0_7 : ∀ i : grid0.Coords, EltTy.bits .f32 = 32 ∨ (Rect.block (s := S512x2) S512x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x2.size a ≤ S32768x2.size a
  hwx0_9 : ∀ i : grid0.Coords, EltTy.bits .f32 = 32 ∨ (Rect.block (s := S32768x2) S2048x2.size (cc0_transform_9 i) (hinb0_9 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x2_S2048x2_1_0_0_1_n_n : DotDims S2048x512 S512x2 S2048x2 where
  lhsContracting := [1]
  rhsContracting := [0]
  lhsNonContracting := [0]
  rhsNonContracting := [1]
  lhsBatch := []
  rhsBatch := []
  wf := dot_S2048x512_S512x2_S2048x2_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S2048x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S256x512 : Shape := ⟨2, ![256, 512]⟩
abbrev S512 : Shape := ⟨1, ![512]⟩
abbrev S512x2 : Shape := ⟨2, ![512, 2]⟩
abbrev S2 : Shape := ⟨1, ![2]⟩
abbrev S16x2048x512 : Shape := ⟨3, ![16, 2048, 512]⟩
abbrev S1x1x512 : Shape := ⟨3, ![1, 1, 512]⟩
abbrev S_ : Shape := ⟨0, ![]⟩
abbrev S16x2048x2 : Shape := ⟨3, ![16, 2048, 2]⟩
abbrev S1x1x2 : Shape := ⟨3, ![1, 1, 2]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S256x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x2, .f32⟩
  | .hbm, ⟨8, _⟩ => ⟨S2, .f32⟩
  | .hbm, ⟨9, _⟩ => ⟨S16x2048x512, .f32⟩
  | .hbm, ⟨10, _⟩ => ⟨S1x1x512, .f32⟩
  | .hbm, ⟨11, _⟩ => ⟨S16x2048x512, .f32⟩
  | .hbm, ⟨12, _⟩ => ⟨S16x2048x512, .f32⟩
  | .hbm, ⟨13, _⟩ => ⟨S_, .f32⟩
  | .hbm, ⟨14, _⟩ => ⟨S16x2048x512, .f32⟩
  | .hbm, ⟨15, _⟩ => ⟨S16x2048x512, .f32⟩
  | .hbm, ⟨16, _⟩ => ⟨S1x1x512, .f32⟩
  | .hbm, ⟨17, _⟩ => ⟨S16x2048x512, .f32⟩
  | .hbm, ⟨18, _⟩ => ⟨S16x2048x512, .f32⟩
  | .hbm, ⟨19, _⟩ => ⟨S_, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S1x1x512, .f32⟩
  | .hbm, ⟨24, _⟩ => ⟨S16x2048x512, .f32⟩
  | .hbm, ⟨25, _⟩ => ⟨S16x2048x512, .f32⟩
  | .hbm, ⟨26, _⟩ => ⟨S1x1x512, .f32⟩
  | .hbm, ⟨27, _⟩ => ⟨S16x2048x512, .f32⟩
  | .hbm, ⟨28, _⟩ => ⟨S16x2048x512, .f32⟩
  | .hbm, ⟨29, _⟩ => ⟨S1x1x512, .f32⟩
  | .hbm, ⟨30, _⟩ => ⟨S16x2048x512, .f32⟩
  | .hbm, ⟨31, _⟩ => ⟨S16x2048x512, .f32⟩
  | .hbm, ⟨32, _⟩ => ⟨S16x2048x2, .f32⟩
  | .hbm, ⟨33, _⟩ => ⟨S1x1x2, .f32⟩
  | .hbm, ⟨34, _⟩ => ⟨S16x2048x2, .f32⟩
  | .hbm, ⟨35, _⟩ => ⟨S16x2048x2, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S16x2048x512_0_1_2 : S1x1x512.BroadcastsInDim S16x2048x512 (![0, 1, 2] : Fin 3 → Fin S16x2048x512.rank)
  bcast_S_S16x2048x512 : S_.BroadcastsInDim S16x2048x512 (![] : Fin 0 → Fin S16x2048x512.rank)
  bcast_S_S512 : S_.BroadcastsInDim S512 (![] : Fin 0 → Fin S512.rank)
  bcast_S2_S1x1x2_2 : S2.BroadcastsInDim S1x1x2 (![2] : Fin 1 → Fin S1x1x2.rank)
  bcast_S1x1x2_S16x2048x2_0_1_2 : S1x1x2.BroadcastsInDim S16x2048x2 (![0, 1, 2] : Fin 3 → Fin S16x2048x2.rank)
  dot_S16x2048x256_S256x512_S16x2048x512_2_0_01_1_n_n_wf : DotDims.WF S16x2048x256 S256x512 S16x2048x512 [2] [0] [0, 1] [1] [] []
  dot_S16x2048x512_S512x2_S16x2048x2_2_0_01_1_n_n_wf : DotDims.WF S16x2048x512 S512x2 S16x2048x2 [2] [0] [0, 1] [1] [] []

variable [Facts₀]

def dot_S16x2048x256_S256x512_S16x2048x512_2_0_01_1_n_n : DotDims S16x2048x256 S256x512 S16x2048x512 where
  lhsContracting := [2]
  rhsContracting := [0]
  lhsNonContracting := [0, 1]
  rhsNonContracting := [1]
  lhsBatch := []
  rhsBatch := []
  wf := dot_S16x2048x256_S256x512_S16x2048x512_2_0_01_1_n_n_wf
def dot_S16x2048x512_S512x2_S16x2048x2_2_0_01_1_n_n : DotDims S16x2048x512 S512x2 S16x2048x2 where
  lhsContracting := [2]
  rhsContracting := [0]
  lhsNonContracting := [0, 1]
  rhsNonContracting := [1]
  lhsBatch := []
  rhsBatch := []
  wf := dot_S16x2048x512_S512x2_S16x2048x2_2_0_01_1_n_n_wf

class Facts : Prop extends Facts₀ where

variable [Facts]
-- ==== Proof.Domain.lean ====
/-
  The precondition `finite_inputs` read back at the extended reals. It is the conjunction of nine tests
  `all (|a_k| < +∞)` and one test `all (a6 ≥ 0)`. At the extended reals `|x| = max x (-x)`, and the pattern
  `0x7F800000` denotes `⊤`; so `|x| < ⊤` says `x` is neither `⊤` nor `⊥`, i.e. `x` is a real number. The pattern
  `0x00000000` denotes `0`, so the tenth test says `0 ≤ a6 i` at every index. Each `all` is a reduction by `and` from the
  constant 1 into a result with one index, which is 1 exactly when every element is 1.
-/
import proofs.«162397_g12257836662994_cont_main3_557_8_alg».proof.Pre_finite_inputs
import Idealize.ShloMosaic.Lib.ReduceAll
import Idealize.ShloMosaic.Lib.IdealHost

noncomputable section

namespace Cert.Domain

open Idealize.ShloMosaic
open Cert.Pre_finite_inputs

/-- The rank-0 shape has one index. -/
instance : Subsingleton S_.Idx := ⟨fun a b => funext fun d => d.elim0⟩

/-- A one-bit word made from a Boolean is 1 exactly when the Boolean is true. -/
theorem ofBool_eq_one (b : Bool) : BitVec.ofBool b = 1#1 ↔ b = true := by cases b <;> decide

/-- The f32 pattern of `+∞` is the extended real `⊤`. -/
theorem ofBits_inf_f32 : Ideal.ofBits .f32 0x7F800000#32 = (⊤ : EReal) := by simp [Ideal.ofBits, Ideal.ieee]

/-- `|x| < +∞` at the extended reals: `x` is a real number. -/
theorem real_of_abs_lt (x : EReal)
    (h : Ideal.cmp .olt (max x (-x)) (Ideal.ofBits .f32 0x7F800000#32) = 1#1) : ∃ r : ℝ, x = (r : EReal) := by
  rw [ofBits_inf_f32] at h
  unfold Ideal.cmp at h
  rw [ofBool_eq_one] at h
  simp only [decide_eq_true_eq] at h
  induction x using EReal.rec with
  | bot => simp at h
  | coe r => exact ⟨r, rfl⟩
  | top => simp at h

/-- `x ≥ 0` at the extended reals, against the pattern of zero. -/
theorem nonneg_of_ge (x : EReal)
    (h : Ideal.cmp .oge x (Ideal.ofBits .f32 0x00000000#32) = 1#1) : 0 ≤ x := by
  rw [Ideal.ofBits_zero_f32] at h
  unfold Ideal.cmp at h
  rw [ofBool_eq_one] at h
  simpa only [decide_eq_true_eq] using h

/-- One test `all (|a| < +∞)` of the precondition, at any shape: every entry of `a` is a real number. -/
theorem finite_of_all {S : Shape} {axes : List (Fin S.rank)} (hb : S_.BroadcastsInDim S (![] : Fin 0 → Fin S.rank))
    (hr : S.ReducesTo axes S_) (hu : 0 < S_.numel) (a : FVec Ideal S .f32)
    (e : Host.reduce IntOp.andi
          (cmpf .olt (Host.absf a) (broadcastInDim S ![] hb (constant S_ .f32 0x7F800000#32)))
          (constantI S_ 1 1#1) hr hu ValueIdx.ix0 = 1#1) :
    ∀ i, ∃ r : ℝ, a i = (r : EReal) := by
  intro i
  have hi := Host.reduce_andi_all _ _ hr hu ValueIdx.ix0 e i
  exact real_of_abs_lt (a i) hi

/-- The test `all (a ≥ 0)` of the precondition, at any shape: every entry of `a` is at least 0. -/
theorem nonneg_of_all {S : Shape} {axes : List (Fin S.rank)} (hb : S_.BroadcastsInDim S (![] : Fin 0 → Fin S.rank))
    (hr : S.ReducesTo axes S_) (hu : 0 < S_.numel) (a : FVec Ideal S .f32)
    (e : Host.reduce IntOp.andi
          (cmpf .oge a (broadcastInDim S ![] hb (constant S_ .f32 0x00000000#32)))
          (constantI S_ 1 1#1) hr hu ValueIdx.ix0 = 1#1) :
    ∀ i, 0 ≤ a i := by
  intro i
  have hi := Host.reduce_andi_all _ _ hr hu ValueIdx.ix0 e i
  exact nonneg_of_ge (a i) hi

/-- The precondition at the extended reals: the entries of `a0 … a5` are real numbers, and those of `a6` are real numbers
    that are not negative. -/
theorem of_pre [Cert.Pre_finite_inputs.Facts]
    (a0 : FVec Ideal S16x2048x256 .f32) (a1 : FVec Ideal S256x512 .f32) (a2 a3 a4 a5 a6 : FVec Ideal S512 .f32)
    (a7 : FVec Ideal S512x2 .f32) (a8 : FVec Ideal S2 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, 0 ≤ r ∧ a6 i = (r : EReal)) := by
  have h0 := congrFun h ValueIdx.ix0
  dsimp only [fn, fn_part1, fn_part2, andi] at h0
  simp only [IntOp.andi_eq_one] at h0
  obtain ⟨⟨⟨⟨⟨⟨⟨⟨⟨e0, e1⟩, e2⟩, e3⟩, e4⟩, e5⟩, e6⟩, _e7⟩, _e8⟩, e9⟩ := h0
  refine ⟨finite_of_all _ _ _ a0 e0, finite_of_all _ _ _ a1 e1, finite_of_all _ _ _ a2 e2, finite_of_all _ _ _ a3 e3,
    finite_of_all _ _ _ a4 e4, finite_of_all _ _ _ a5 e5, fun i => ?_⟩
  obtain ⟨r, hr⟩ := finite_of_all _ _ _ a6 e6 i
  have hn := nonneg_of_all _ _ _ a6 e9 i
  rw [hr] at hn
  exact ⟨r, EReal.coe_nonneg.1 hn, hr⟩

end Cert.Domain

end
-- ==== Proof.Affine.lean ====
/- Pure extended-real arithmetic for an eval-mode batch-norm followed by an affine layer and a clip.
   Three facts, none about any program: (1) on finite entries with a nonnegative variance and a positive
   epsilon, scaling by γ·(v+ε)^(-1/2) and shifting by β − μ·γ·(v+ε)^(-1/2) equals subtracting μ, dividing by
   √(v+ε), scaling by γ and adding β; (2) the f32 pattern 0x3727C5AC denotes a positive real; (3) a finite sum
   of products of reals, plus a real, clipped below by a real, is a real. -/
import Idealize.ShloMosaic.PureOps.Ideal

noncomputable section

namespace Cert.Affine

open Idealize.ShloMosaic
open scoped BigOperators

/-- An eval-mode batch-norm written two ways agrees on finite entries with nonnegative variance: scaling by
    γ·(v+ε)^(-1/2) and shifting by β − μ·γ·(v+ε)^(-1/2), against subtracting μ, dividing by √(v+ε), scaling by
    γ and adding β. -/
theorem normalize_eq {R g be mu v eps : EReal} (hR : ∃ r : ℝ, R = (r : EReal)) (hg : ∃ r : ℝ, g = (r : EReal))
    (hbe : ∃ r : ℝ, be = (r : EReal)) (hmu : ∃ r : ℝ, mu = (r : EReal))
    (hv : ∃ r : ℝ, 0 ≤ r ∧ v = (r : EReal)) (heps : ∃ e : ℝ, 0 < e ∧ eps = (e : EReal)) :
    R * (g * Ideal.rsqrt (v + eps)) + (be - mu * (g * Ideal.rsqrt (v + eps)))
      = Ideal.div (R - mu) (Ideal.sqrt (v + eps)) * g + be := by
  obtain ⟨r, rfl⟩ := hR
  obtain ⟨c, rfl⟩ := hg
  obtain ⟨b, rfl⟩ := hbe
  obtain ⟨m, rfl⟩ := hmu
  obtain ⟨w, hw, rfl⟩ := hv
  obtain ⟨e, he, rfl⟩ := heps
  -- the variance plus epsilon is a positive real s, so its square root is a nonzero real
  have hs : 0 < w + e := by linarith
  have hq : Real.sqrt (w + e) ≠ 0 := (Real.sqrt_pos.mpr hs).ne'
  rw [← EReal.coe_add, Ideal.rsqrt_coe, Ideal.sqrt_coe, if_neg (not_lt.mpr hs.le), if_neg hs.ne',
    if_neg (not_lt.mpr hs.le), Ideal.div_coe hq]
  -- every term is now the coercion of a real: compare in ℝ
  simp only [← EReal.coe_mul, ← EReal.coe_sub, ← EReal.coe_add]
  congr 1
  field_simp
  ring

/-- The f32 pattern 0x3727C5AC (the literal 1e-5 rounded to f32) denotes a positive real: sign 0, exponent
    field 110, fraction field 2606508, hence (2^23 + 2606508) · 2^(110 − 127 − 23). -/
theorem eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- A finite sum of coercions of reals is the coercion of the sum. -/
theorem sum_coe {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A finite sum of products of reals, plus a real, clipped below by a real, is a real. -/
theorem real_relu_dot {n : ℕ} (f g : Fin n → EReal) (b z : EReal) (hf : ∀ k, ∃ r : ℝ, f k = (r : EReal))
    (hg : ∀ k, ∃ r : ℝ, g k = (r : EReal)) (hb : ∃ r : ℝ, b = (r : EReal)) (hz : ∃ r : ℝ, z = (r : EReal)) :
    ∃ r : ℝ, max ((∑ k, f k * g k) + b) z = (r : EReal) := by
  choose F hF using hf
  choose G hG using hg
  obtain ⟨b', rfl⟩ := hb
  obtain ⟨z', rfl⟩ := hz
  refine ⟨max ((∑ k, F k * G k) + b') z', ?_⟩
  simp only [hF, hG, ← EReal.coe_mul]
  rw [sum_coe, ← EReal.coe_add]
  -- the coercion ℝ → EReal is monotone, so it commutes with the maximum
  exact (EReal.coe_strictMono.monotone.map_max).symm

/-- The same with a zero accumulator in front of the sum. -/
theorem real_relu_dot' {n : ℕ} (f g : Fin n → EReal) (b z : EReal) (hf : ∀ k, ∃ r : ℝ, f k = (r : EReal))
    (hg : ∀ k, ∃ r : ℝ, g k = (r : EReal)) (hb : ∃ r : ℝ, b = (r : EReal)) (hz : ∃ r : ℝ, z = (r : EReal)) :
    ∃ r : ℝ, max ((0 + ∑ k, f k * g k) + b) z = (r : EReal) := by
  rw [zero_add]
  exact real_relu_dot f g b z hf hg hb hz

end Cert.Affine

end
-- ==== Proof.Spec.lean ====
/-
  The mathematics both programs compute, index by index, on the extended reals.

  A two-layer decoder over rows (b, l) of a [16, 2048, 256] input: the hidden activation is
  relu (x · W1 + b1) over 512 channels; each channel is then normalised with running statistics
  (mean μ, variance v, scale γ, shift β) and the result is projected by W2 with bias b2 onto two outputs.

  The normalisation is written in two ways.  One program scales by γ · (v + ε)^(-1/2) and shifts by
  β − μ · γ · (v + ε)^(-1/2); the other subtracts μ, divides by √(v + ε), multiplies by γ and adds β.
  On finite entries with v ≥ 0 (so v + ε > 0) the two are the same real number; at v + ε ≤ 0 the
  extended reals' conventions for a reciprocal square root and for a quotient by a non-positive root
  differ, so the hypothesis is needed.  Everything else (both contractions, the bias additions, the
  clip at zero) is literally the same expression on the two sides, and the outer contraction is taken
  over equal summands, so no distributivity over the outer sum is used.
-/
import Idealize.ShloMosaic.PureOps.Ideal
import Idealize.ShloMosaic.PureOps.Ideal.Laws
import Idealize.ShloMosaic.Lib.ValueIdx
import proofs.«162397_g12257836662994_cont_main3_557_8_alg».proof.Proof.Affine

noncomputable section

namespace Cert.Spec

open Idealize.ShloMosaic Idealize.ShloMosaic.ValueIdx

/-- The hidden activation at row (b, l), channel j: the row of x against column j of W1, plus the bias, clipped at zero. -/
def act (x : (⟨3, ![16, 2048, 256]⟩ : Shape).Idx → EReal) (W1 : (⟨2, ![256, 512]⟩ : Shape).Idx → EReal)
    (b1 : (⟨1, ![512]⟩ : Shape).Idx → EReal) (b : Fin 16) (l : Fin 2048) (j : Fin 512) : EReal :=
  max ((∑ d : Fin 256, x (ix3 b l d) * W1 (ix2 d j)) + b1 (ix1 j)) (Ideal.ofBits .f32 0x00000000#32)

/-- The normalisation as scale and shift: R · (γ · (v + ε)^(-1/2)) + (β − μ · (γ · (v + ε)^(-1/2))). -/
def normScaleShift (R g be mu v : EReal) : EReal :=
  R * (g * Ideal.rsqrt (v + Ideal.ofBits .f32 0x3727C5AC#32))
    + (be - mu * (g * Ideal.rsqrt (v + Ideal.ofBits .f32 0x3727C5AC#32)))

/-- The normalisation as centre, divide, scale, shift: ((R − μ) / √(v + ε)) · γ + β. -/
def normCentreDivide (R g be mu v : EReal) : EReal :=
  Ideal.div (R - mu) (Ideal.sqrt (v + Ideal.ofBits .f32 0x3727C5AC#32)) * g + be

/-- The output with the scale-and-shift normalisation: at (b, l, o) the normalised hidden row against column o of W2, plus b2 o. -/
def outScaleShift (x : (⟨3, ![16, 2048, 256]⟩ : Shape).Idx → EReal) (W1 : (⟨2, ![256, 512]⟩ : Shape).Idx → EReal)
    (b1 g be mu v : (⟨1, ![512]⟩ : Shape).Idx → EReal) (W2 : (⟨2, ![512, 2]⟩ : Shape).Idx → EReal)
    (b2 : (⟨1, ![2]⟩ : Shape).Idx → EReal) : (⟨3, ![16, 2048, 2]⟩ : Shape).Idx → EReal := fun i =>
  (∑ j : Fin 512, normScaleShift (act x W1 b1 (i 0) (i 1) j) (g (ix1 j)) (be (ix1 j)) (mu (ix1 j)) (v (ix1 j)) * W2 (ix2 j (i 2)))
    + b2 (ix1 (i 2))

/-- The output with the centre-and-divide normalisation. -/
def outCentreDivide (x : (⟨3, ![16, 2048, 256]⟩ : Shape).Idx → EReal) (W1 : (⟨2, ![256, 512]⟩ : Shape).Idx → EReal)
    (b1 g be mu v : (⟨1, ![512]⟩ : Shape).Idx → EReal) (W2 : (⟨2, ![512, 2]⟩ : Shape).Idx → EReal)
    (b2 : (⟨1, ![2]⟩ : Shape).Idx → EReal) : (⟨3, ![16, 2048, 2]⟩ : Shape).Idx → EReal := fun i =>
  (∑ j : Fin 512, normCentreDivide (act x W1 b1 (i 0) (i 1) j) (g (ix1 j)) (be (ix1 j)) (mu (ix1 j)) (v (ix1 j)) * W2 (ix2 j (i 2)))
    + b2 (ix1 (i 2))

/-- The zero pattern is the real number zero. -/
theorem zero_real : ∃ r : ℝ, Ideal.ofBits .f32 0x00000000#32 = (r : EReal) :=
  ⟨0, by rw [Ideal.ofBits_zero_f32, EReal.coe_zero]⟩

/-- With x, W1, b1, γ, β, μ finite and v finite and nonnegative, the two outputs agree at every index: the hidden
    activation is then a real number, v + ε is a positive real, and the two normalisations are one real expression. -/
theorem outScaleShift_eq_outCentreDivide (x : (⟨3, ![16, 2048, 256]⟩ : Shape).Idx → EReal)
    (W1 : (⟨2, ![256, 512]⟩ : Shape).Idx → EReal) (b1 g be mu v : (⟨1, ![512]⟩ : Shape).Idx → EReal)
    (W2 : (⟨2, ![512, 2]⟩ : Shape).Idx → EReal) (b2 : (⟨1, ![2]⟩ : Shape).Idx → EReal)
    (hx : ∀ i, ∃ r : ℝ, x i = (r : EReal)) (hW1 : ∀ i, ∃ r : ℝ, W1 i = (r : EReal))
    (hb1 : ∀ i, ∃ r : ℝ, b1 i = (r : EReal)) (hg : ∀ i, ∃ r : ℝ, g i = (r : EReal))
    (hbe : ∀ i, ∃ r : ℝ, be i = (r : EReal)) (hmu : ∀ i, ∃ r : ℝ, mu i = (r : EReal))
    (hv : ∀ i, ∃ r : ℝ, 0 ≤ r ∧ v i = (r : EReal)) :
    outScaleShift x W1 b1 g be mu v W2 b2 = outCentreDivide x W1 b1 g be mu v W2 b2 := by
  funext i
  unfold outScaleShift outCentreDivide
  refine congrArg (· + b2 (ix1 (i 2))) (Finset.sum_congr rfl fun j _ => ?_)
  refine congrArg (· * W2 (ix2 j (i 2))) ?_
  unfold normScaleShift normCentreDivide act
  exact Cert.Affine.normalize_eq
    (Cert.Affine.real_relu_dot (fun d : Fin 256 => x (ix3 (i 0) (i 1) d)) (fun d : Fin 256 => W1 (ix2 d j)) (b1 (ix1 j)) _
      (fun d => hx _) (fun d => hW1 _) (hb1 _) zero_real)
    (hg _) (hbe _) (hmu _) (hv _) Cert.Affine.eps_pos

end Cert.Spec

end
-- ==== Proof.RefValue.lean ====
/- The reference program's result, read at an index, is the specification's centre-and-divide output.
   At the index (b, l, o) the program's last operation is the sum of a contraction over 512 channels and a
   broadcast bias; each summand is the normalised hidden activation of channel j times W2 (j, o), where the
   normalisation subtracts the running mean, divides by the square root of the running variance plus epsilon,
   multiplies by gamma and adds beta, and the hidden activation is the contraction of row (b, l) of x against
   column j of W1, plus the bias, clipped at zero. Every broadcast reads its operand at the composed index, and
   each composed index is the index built from the coordinates, coordinate by coordinate. -/
import proofs.«162397_g12257836662994_cont_main3_557_8_alg».proof.Proof.Gen.ReferenceIdeal.Read
import proofs.«162397_g12257836662994_cont_main3_557_8_alg».proof.Proof.Spec

noncomputable section

namespace Cert.RefValue

open Cert.ReferenceIdeal Cert.ReferenceIdeal.Read Idealize.ShloMosaic Idealize.ShloMosaic.ValueIdx
open scoped BigOperators

/-- The reference program's result is the centre-and-divide output of its nine arguments. -/
theorem ref_eq (x0 : (⟨S16x2048x256, .f32⟩ : BufTy).Contents (Elt Ideal))
    (x1 : (⟨S256x512, .f32⟩ : BufTy).Contents (Elt Ideal))
    (x2 x3 x4 x5 x6 : (⟨S512, .f32⟩ : BufTy).Contents (Elt Ideal))
    (x7 : (⟨S512x2, .f32⟩ : BufTy).Contents (Elt Ideal)) (x8 : (⟨S2, .f32⟩ : BufTy).Contents (Elt Ideal)) :
    val_main_v24 (F := Ideal) x0 x1 x2 x3 x4 x5 x6 x7 x8
      = Cert.Spec.outCentreDivide x0 x1 x2 x3 x4 x5 x6 x7 x8 := by
  funext i
  -- the last operation: a contraction over the 512 channels plus the broadcast bias
  rw [val_main_v24_apply, val_main_v21_apply, val_main_v23_apply, val_main_v22_apply]
  unfold Cert.Spec.outCentreDivide
  have e8 : idx_main_v22 (idx_main_v23 i) = ix1 (i 2) :=
    funext fun a => Fin.ext (by match a with | ⟨0, _⟩ => rfl)
  rw [e8, Ideal.addf_def]
  refine congrArg (· + x8 (ix1 (i 2))) (Finset.sum_congr rfl fun k _ => ?_)
  have e7 : ridx_main_v21 i k = ix2 k (i 2) :=
    funext fun a => Fin.ext (by match a with | ⟨0, _⟩ => rfl | ⟨1, _⟩ => rfl)
  rw [e7]
  refine congrArg (· * x7 (ix2 k (i 2))) ?_
  -- one summand: the normalised hidden activation of channel k at row (i 0, i 1)
  rw [val_main_v20_apply, val_main_v17_apply, val_main_v14_apply, val_main_v8_apply, val_main_v5_apply,
    val_main_v3_apply, val_main_v0_apply, val_main_v2_apply, val_main_v1_apply, val_main_v4_apply,
    val_main_cst_apply, val_main_v7_apply, val_main_v6_apply, val_main_v13_apply, val_main_v12_apply,
    val_main_v11_apply, val_main_v10_apply, val_main_v9_apply, val_main_cst_0_apply, val_main_v16_apply,
    val_main_v15_apply, val_main_v19_apply, val_main_v18_apply]
  have eA : ∀ d : Fin 256, lidx_main_v0 (lidx_main_v21 i k) d = ix3 (i 0) (i 1) d := fun d =>
    funext fun a => Fin.ext (by match a with | ⟨0, _⟩ => rfl | ⟨1, _⟩ => rfl | ⟨2, _⟩ => rfl)
  have eB : ∀ d : Fin 256, ridx_main_v0 (lidx_main_v21 i k) d = ix2 d k := fun d =>
    funext fun a => Fin.ext (by match a with | ⟨0, _⟩ => rfl | ⟨1, _⟩ => rfl)
  have e2 : idx_main_v1 (idx_main_v2 (lidx_main_v21 i k)) = ix1 k :=
    funext fun a => Fin.ext (by match a with | ⟨0, _⟩ => rfl)
  have e5 : idx_main_v6 (idx_main_v7 (lidx_main_v21 i k)) = ix1 k :=
    funext fun a => Fin.ext (by match a with | ⟨0, _⟩ => rfl)
  have e6 : idx_main_v12 (idx_main_v13 (lidx_main_v21 i k)) = ix1 k :=
    funext fun a => Fin.ext (by match a with | ⟨0, _⟩ => rfl)
  have e3 : idx_main_v15 (idx_main_v16 (lidx_main_v21 i k)) = ix1 k :=
    funext fun a => Fin.ext (by match a with | ⟨0, _⟩ => rfl)
  have e4 : idx_main_v18 (idx_main_v19 (lidx_main_v21 i k)) = ix1 k :=
    funext fun a => Fin.ext (by match a with | ⟨0, _⟩ => rfl)
  rw [e2, e5, e6, e3, e4]
  simp only [eA, eB, Ideal.addf_def, Ideal.subf_def, Ideal.mulf_def, Ideal.maximumf_def, Ideal.hostDivf_def,
    Ideal.hostUnary_sqrt_def, Ideal.ofBits_def]
  unfold Cert.Spec.normCentreDivide Cert.Spec.act
  rfl

end Cert.RefValue

end
-- ==== Proof.Arrays.lean ====
/-
  The arrays the kernel's region finds on entry, read at an index.

  Before the region the program only re-lays its arguments: the input x, of shape [16, 2048, 256], is viewed as
  32768 rows of 256 (row 2048·b + l is row l of batch b), and each of the six vectors (b1, γ, β, μ, v of length 512
  and b2 of length 2) gets a leading unit axis.  A re-laid array holds, at an index, the source's entry with the
  same row-major position; this module states that for each of the seven arrays, by coordinates.
-/
import proofs.«162397_g12257836662994_cont_main3_557_8_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelArrays

open Cert.KernelIdeal Cert.KernelIdeal.Gen Idealize.ShloMosaic Idealize.ShloMosaic.TcCoe Idealize.SL.Sem
open Idealize.ShloMosaic.StableHlo Idealize.ShloMosaic.ValueIdx

/-- A [16, 2048, 256] array viewed as 32768 rows: row 2048·b + l is row l of batch b. -/
theorem rows_cast_apply (x : S16x2048x256.Idx → EReal) (h : S16x2048x256.ShapeCasts S32768x256)
    (b : Fin 16) (l : Fin 2048) (d : Fin 256) (r : Fin 32768) (hr : r.val = b.val * 2048 + l.val) :
    shapeCast S32768x256 x h (ix2 r d) = x (ix3 b l d) :=
  shapeCast_apply x h _ _ (by
    rw [Shape.rowMajor_val_three, Shape.rowMajor_val_two]
    show (b.val * 2048 + l.val) * 256 + d.val = r.val * 256 + d.val
    rw [hr])

/-- 32768 rows of 2 viewed as [16, 2048, 2]: entry (b, l, o) is row 2048·b + l, column o. -/
theorem unrows_cast_apply (y : S32768x2.Idx → EReal) (h : S32768x2.ShapeCasts S16x2048x2)
    (b : Fin 16) (l : Fin 2048) (o : Fin 2) (r : Fin 32768) (hr : r.val = b.val * 2048 + l.val) :
    shapeCast S16x2048x2 y h (ix3 b l o) = y (ix2 r o) :=
  shapeCast_apply y h _ _ (by
    rw [Shape.rowMajor_val_three, Shape.rowMajor_val_two]
    show r.val * 2 + o.val = (b.val * 2048 + l.val) * 2 + o.val
    rw [hr])

variable (m : (ℓ : Loc nD τ sig) → Buf (Elt Ideal) ℓ)

/-- The row array is x re-laid. -/
theorem rows_eq (c : Dev nD) : (V m c main_v0 : S32768x256.Idx → EReal)
    = shapeCast S32768x256 (m ((c : Thread nD τ).loc main_arg0)) Gen.shapeCasts_S16x2048x256_S32768x256 := by
  show StableHlo.after hostOps0 (fun b => m (c, b)) (Proc.devRef .tc main_v0) = _
  after_results
  rfl

/-- Row 2048·b + l of the row array is row l of batch b of x. -/
theorem rows_apply (c : Dev nD) (b : Fin 16) (l : Fin 2048) (d : Fin 256) (r : Fin 32768) (hr : r.val = b.val * 2048 + l.val) :
    (V m c main_v0 : S32768x256.Idx → EReal) (ix2 r d) = (m ((c : Thread nD τ).loc main_arg0) : S16x2048x256.Idx → EReal) (ix3 b l d) := by
  rw [rows_eq]
  exact rows_cast_apply _ _ b l d r hr

/-- The bias1 vector with its leading unit axis is the vector re-laid. -/
theorem bias1_eq (c : Dev nD) : (V m c main_v1 : S1x512.Idx → EReal)
    = shapeCast S1x512 (m ((c : Thread nD τ).loc main_arg2)) Gen.shapeCasts_S512_S1x512 := by
  show StableHlo.after hostOps0 (fun b => m (c, b)) (Proc.devRef .tc main_v1) = _
  after_results
  rfl

/-- Its entry (0, j) is entry j of the vector. -/
theorem bias1_apply (c : Dev nD) (u : Fin 1) (j : Fin 512) :
    (V m c main_v1 : S1x512.Idx → EReal) (ix2 u j) = (m ((c : Thread nD τ).loc main_arg2) : S512.Idx → EReal) (ix1 j) := by
  rw [bias1_eq]
  exact shapeCast_a_1a_apply _ _ u j

/-- The gamma vector with its leading unit axis is the vector re-laid. -/
theorem gamma_eq (c : Dev nD) : (V m c main_v2 : S1x512.Idx → EReal)
    = shapeCast S1x512 (m ((c : Thread nD τ).loc main_arg3)) Gen.shapeCasts_S512_S1x512 := by
  show StableHlo.after hostOps0 (fun b => m (c, b)) (Proc.devRef .tc main_v2) = _
  after_results
  rfl

/-- Its entry (0, j) is entry j of the vector. -/
theorem gamma_apply (c : Dev nD) (u : Fin 1) (j : Fin 512) :
    (V m c main_v2 : S1x512.Idx → EReal) (ix2 u j) = (m ((c : Thread nD τ).loc main_arg3) : S512.Idx → EReal) (ix1 j) := by
  rw [gamma_eq]
  exact shapeCast_a_1a_apply _ _ u j

/-- The beta vector with its leading unit axis is the vector re-laid. -/
theorem beta_eq (c : Dev nD) : (V m c main_v3 : S1x512.Idx → EReal)
    = shapeCast S1x512 (m ((c : Thread nD τ).loc main_arg4)) Gen.shapeCasts_S512_S1x512 := by
  show StableHlo.after hostOps0 (fun b => m (c, b)) (Proc.devRef .tc main_v3) = _
  after_results
  rfl

/-- Its entry (0, j) is entry j of the vector. -/
theorem beta_apply (c : Dev nD) (u : Fin 1) (j : Fin 512) :
    (V m c main_v3 : S1x512.Idx → EReal) (ix2 u j) = (m ((c : Thread nD τ).loc main_arg4) : S512.Idx → EReal) (ix1 j) := by
  rw [beta_eq]
  exact shapeCast_a_1a_apply _ _ u j

/-- The mean vector with its leading unit axis is the vector re-laid. -/
theorem mean_eq (c : Dev nD) : (V m c main_v4 : S1x512.Idx → EReal)
    = shapeCast S1x512 (m ((c : Thread nD τ).loc main_arg5)) Gen.shapeCasts_S512_S1x512 := by
  show StableHlo.after hostOps0 (fun b => m (c, b)) (Proc.devRef .tc main_v4) = _
  after_results
  rfl

/-- Its entry (0, j) is entry j of the vector. -/
theorem mean_apply (c : Dev nD) (u : Fin 1) (j : Fin 512) :
    (V m c main_v4 : S1x512.Idx → EReal) (ix2 u j) = (m ((c : Thread nD τ).loc main_arg5) : S512.Idx → EReal) (ix1 j) := by
  rw [mean_eq]
  exact shapeCast_a_1a_apply _ _ u j

/-- The var vector with its leading unit axis is the vector re-laid. -/
theorem var_eq (c : Dev nD) : (V m c main_v5 : S1x512.Idx → EReal)
    = shapeCast S1x512 (m ((c : Thread nD τ).loc main_arg6)) Gen.shapeCasts_S512_S1x512 := by
  show StableHlo.after hostOps0 (fun b => m (c, b)) (Proc.devRef .tc main_v5) = _
  after_results
  rfl

/-- Its entry (0, j) is entry j of the vector. -/
theorem var_apply (c : Dev nD) (u : Fin 1) (j : Fin 512) :
    (V m c main_v5 : S1x512.Idx → EReal) (ix2 u j) = (m ((c : Thread nD τ).loc main_arg6) : S512.Idx → EReal) (ix1 j) := by
  rw [var_eq]
  exact shapeCast_a_1a_apply _ _ u j

/-- The bias2 vector with its leading unit axis is the vector re-laid. -/
theorem bias2_eq (c : Dev nD) : (V m c main_v6 : S1x2.Idx → EReal)
    = shapeCast S1x2 (m ((c : Thread nD τ).loc main_arg8)) Gen.shapeCasts_S2_S1x2 := by
  show StableHlo.after hostOps0 (fun b => m (c, b)) (Proc.devRef .tc main_v6) = _
  after_results
  rfl

/-- Its entry (0, j) is entry j of the vector. -/
theorem bias2_apply (c : Dev nD) (u : Fin 1) (j : Fin 2) :
    (V m c main_v6 : S1x2.Idx → EReal) (ix2 u j) = (m ((c : Thread nD τ).loc main_arg8) : S2.Idx → EReal) (ix1 j) := by
  rw [bias2_eq]
  exact shapeCast_a_1a_apply _ _ u j

end Cert.KernelArrays

end
-- ==== Proof.Payload.lean ====
/-
  The kernel body's arithmetic, read at an output index on the extended reals.

  The body forms the hidden activation max (x · W1 + b1, 0) over 512 channels, scales channel j by
  γ j · (v j + ε)^(-1/2), shifts it by β j − μ j · γ j · (v j + ε)^(-1/2), contracts the result with W2 and adds b2.
  Each contraction into the zero array is the plain sum of products over the one contracted axis; a rounding to the
  narrower format is the identity on the extended reals; a cast to the same shape is the identity; a [1, n] row broadcast
  over 2048 rows reads the row at the column. So at row p and output o the body's value is
  ∑ j, normScaleShift (max (∑ d, x p d · W1 d j + b1 j) 0) (γ j) (β j) (μ j) (v j) · W2 j o + b2 o.
-/
import proofs.«162397_g12257836662994_cont_main3_557_8_alg».proof.Proof.Gen.KernelIdeal.Skeleton
import proofs.«162397_g12257836662994_cont_main3_557_8_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Payload

open Cert.KernelIdeal Cert.KernelIdeal.Gen Idealize.ShloMosaic Idealize.ShloMosaic.ValueIdx

/-- The first contraction's dimension numbers: [2048, 256] against [256, 512] over the axis of extent 256. -/
abbrev D1 : DotDims S2048x256 S256x512 S2048x512 := dot_S2048x256_S256x512_S2048x512_1_0_0_1_n_n
/-- The second contraction's dimension numbers: [2048, 512] against [512, 2] over the axis of extent 512. -/
abbrev D2 : DotDims S2048x512 S512x2 S2048x2 := dot_S2048x512_S512x2_S2048x2_1_0_0_1_n_n

/-! ## The operand indices of the two contractions, coordinate by coordinate -/

theorem lhs1_0 (i : S2048x512.Idx) (q : D1.contr.Idx) : (D1.lhsIdx i q 0).val = (i 0).val := by
  unfold DotDims.lhsIdx
  rw [dif_neg (show ¬(0 : Fin S2048x256.rank) ∈ D1.lhsBatch by decide),
    dif_pos (show (0 : Fin S2048x256.rank) ∈ D1.lhsNonContracting by decide)]
  rfl
theorem lhs1_1 (i : S2048x512.Idx) (q : D1.contr.Idx) : (D1.lhsIdx i q 1).val = (q ⟨0, by decide⟩).val :=
  D1.lhsIdx_val_of_single rfl i q
theorem rhs1_0 (i : S2048x512.Idx) (q : D1.contr.Idx) : (D1.rhsIdx i q 0).val = (q ⟨0, by decide⟩).val :=
  D1.rhsIdx_val_of_single rfl i q
theorem rhs1_1 (i : S2048x512.Idx) (q : D1.contr.Idx) : (D1.rhsIdx i q 1).val = (i 1).val := by
  unfold DotDims.rhsIdx
  rw [dif_neg (show ¬(1 : Fin S256x512.rank) ∈ D1.rhsBatch by decide),
    dif_pos (show (1 : Fin S256x512.rank) ∈ D1.rhsNonContracting by decide)]
  rfl

theorem lhs2_0 (i : S2048x2.Idx) (q : D2.contr.Idx) : (D2.lhsIdx i q 0).val = (i 0).val := by
  unfold DotDims.lhsIdx
  rw [dif_neg (show ¬(0 : Fin S2048x512.rank) ∈ D2.lhsBatch by decide),
    dif_pos (show (0 : Fin S2048x512.rank) ∈ D2.lhsNonContracting by decide)]
  rfl
theorem lhs2_1 (i : S2048x2.Idx) (q : D2.contr.Idx) : (D2.lhsIdx i q 1).val = (q ⟨0, by decide⟩).val :=
  D2.lhsIdx_val_of_single rfl i q
theorem rhs2_0 (i : S2048x2.Idx) (q : D2.contr.Idx) : (D2.rhsIdx i q 0).val = (q ⟨0, by decide⟩).val :=
  D2.rhsIdx_val_of_single rfl i q
theorem rhs2_1 (i : S2048x2.Idx) (q : D2.contr.Idx) : (D2.rhsIdx i q 1).val = (i 1).val := by
  unfold DotDims.rhsIdx
  rw [dif_neg (show ¬(1 : Fin S512x2.rank) ∈ D2.rhsBatch by decide),
    dif_pos (show (1 : Fin S512x2.rank) ∈ D2.rhsNonContracting by decide)]
  rfl

/-! ## The two contractions into the zero array -/

/-- The first contraction at (p, j): the row p of the left operand against the column j of the right. -/
theorem mm1_apply (x : FVec Ideal S2048x256 .bf16) (w : FVec Ideal S256x512 .bf16) (p : Fin 2048) (j : Fin 512) :
    matmul (F := Ideal) D1 none x w (constant (F := Ideal) S2048x512 .f32 0x00000000#32) (ix2 p j)
      = ∑ d : Fin 256, x (ix2 p d) * w (ix2 d j) := by
  simp only [matmul]
  rw [Ideal.matmul_constant_zero_apply, ← Equiv.sum_comp (contrEquiv1 D1 256 rfl rfl).symm]
  refine Finset.sum_congr rfl fun k _ => ?_
  have hk := contrEquiv1_symm_val D1 256 rfl rfl k
  have el : D1.lhsIdx (ix2 p j) ((contrEquiv1 D1 256 rfl rfl).symm k) = ix2 p k := funext fun a => Fin.ext (by
    match a with
    | ⟨0, _⟩ => exact lhs1_0 _ _
    | ⟨1, _⟩ => exact (lhs1_1 _ _).trans hk)
  have er : D1.rhsIdx (ix2 p j) ((contrEquiv1 D1 256 rfl rfl).symm k) = ix2 k j := funext fun a => Fin.ext (by
    match a with
    | ⟨0, _⟩ => exact (rhs1_0 _ _).trans hk
    | ⟨1, _⟩ => exact rhs1_1 _ _)
  rw [el, er]

/-- The second contraction at (p, o): the row p of the left operand against the column o of the right. -/
theorem mm2_apply (x : FVec Ideal S2048x512 .bf16) (w : FVec Ideal S512x2 .bf16) (p : Fin 2048) (o : Fin 2) :
    matmul (F := Ideal) D2 none x w (constant (F := Ideal) S2048x2 .f32 0x00000000#32) (ix2 p o)
      = ∑ j : Fin 512, x (ix2 p j) * w (ix2 j o) := by
  simp only [matmul]
  rw [Ideal.matmul_constant_zero_apply, ← Equiv.sum_comp (contrEquiv1 D2 512 rfl rfl).symm]
  refine Finset.sum_congr rfl fun k _ => ?_
  have hk := contrEquiv1_symm_val D2 512 rfl rfl k
  have el : D2.lhsIdx (ix2 p o) ((contrEquiv1 D2 512 rfl rfl).symm k) = ix2 p k := funext fun a => Fin.ext (by
    match a with
    | ⟨0, _⟩ => exact lhs2_0 _ _
    | ⟨1, _⟩ => exact (lhs2_1 _ _).trans hk)
  have er : D2.rhsIdx (ix2 p o) ((contrEquiv1 D2 512 rfl rfl).symm k) = ix2 k o := funext fun a => Fin.ext (by
    match a with
    | ⟨0, _⟩ => exact (rhs2_0 _ _).trans hk
    | ⟨1, _⟩ => exact rhs2_1 _ _)
  rw [el, er]

/-! ## The pointwise pieces -/

/-- The reciprocal square root of an array, at an index. -/
theorem rsqrt_apply {s : Shape} {φ : FTy} (a : FVec Ideal s φ) (i : s.Idx) : rsqrt a i = Ideal.rsqrt (a i) := rfl

/-- A scalar constant's pattern denotes what the array constant's does. -/
theorem scalar_ofBits (b : BitVec FTy.f32.bits) : (Scalar.ofBits (F := Ideal) .f32 b) = Ideal.ofBits .f32 b := rfl

/-- The normalised hidden value at (p, j): the hidden activation at (p, j) under the scale and shift of channel j. -/
theorem hidden_apply (x0 : FVec Ideal S2048x256 .f32) (w1 : FVec Ideal S256x512 .f32) (b1 g var be mu : FVec Ideal S1x512 .f32)
    (p : Fin 2048) (j : Fin 512) :
    addf (F := Ideal)
        (mulf
          (maximumf
            (addf (matmul (F := Ideal) D1 none (truncf .bf16 x0 Facts₀.bitsLt_bf16_f32) (truncf .bf16 w1 Facts₀.bitsLt_bf16_f32)
                (constant (F := Ideal) S2048x512 .f32 0x00000000#32))
              (broadcastTo S2048x512 b1 Facts₀.broadcasts_S1x512_S2048x512))
            (broadcast S2048x512 (Scalar.ofBits (F := Ideal) .f32 0x00000000#32)))
          (broadcastTo S2048x512
            (mulf g (rsqrt (addf var (broadcast S1x512 (Scalar.ofBits (F := Ideal) .f32 0x3727C5AC#32)))))
            Facts₀.broadcasts_S1x512_S2048x512))
        (broadcastTo S2048x512
          (subf be (mulf mu (mulf g (rsqrt (addf var (broadcast S1x512 (Scalar.ofBits (F := Ideal) .f32 0x3727C5AC#32)))))))
          Facts₀.broadcasts_S1x512_S2048x512)
        (ix2 p j)
      = Cert.Spec.normScaleShift
          (max ((∑ d : Fin 256, x0 (ix2 p d) * w1 (ix2 d j)) + b1 (ix2 (0 : Fin 1) j)) (Ideal.ofBits .f32 0x00000000#32))
          (g (ix2 (0 : Fin 1) j)) (be (ix2 (0 : Fin 1) j)) (mu (ix2 (0 : Fin 1) j)) (var (ix2 (0 : Fin 1) j)) := by
  rw [addf_apply, mulf_apply, maximumf_apply, addf_apply, mm1_apply, broadcast_apply, scalar_ofBits]
  rw [broadcastTo_1b_ab_apply, broadcastTo_1b_ab_apply, broadcastTo_1b_ab_apply]
  simp only [truncf_apply, subf_apply, mulf_apply, rsqrt_apply, addf_apply, broadcast_apply, scalar_ofBits]
  rfl

/-- The kernel body's stored value at row p, output o. -/
theorem pay_apply (x0 : Vec Ideal S2048x256 .f32) (w1 : Vec Ideal S256x512 .f32) (b1 g var be mu : Vec Ideal S1x512 .f32)
    (w2 : Vec Ideal S512x2 .f32) (b2 : Vec Ideal S1x2 .f32) (p : Fin 2048) (o : Fin 2) :
    k0_pay1 (F := Ideal) (k0_pay2 x0 w1 b1 g var be mu w2) (k0_pay3 b2) (ix2 p o)
      = (∑ j : Fin 512, Cert.Spec.normScaleShift
            (max ((∑ d : Fin 256, x0 (ix2 p d) * w1 (ix2 d j)) + b1 (ix2 (0 : Fin 1) j)) (Ideal.ofBits .f32 0x00000000#32))
            (g (ix2 (0 : Fin 1) j)) (be (ix2 (0 : Fin 1) j)) (mu (ix2 (0 : Fin 1) j)) (var (ix2 (0 : Fin 1) j)) * w2 (ix2 j o))
          + b2 (ix2 (0 : Fin 1) o) := by
  unfold k0_pay1 k0_pay2 k0_pay3
  dsimp only
  simp only [shapeCast_self]
  rw [addf_apply, mm2_apply, broadcastTo_1b_ab_apply]
  refine congrArg (· + b2 (ix2 (0 : Fin 1) o)) (Finset.sum_congr rfl fun j _ => ?_)
  rw [truncf_apply, truncf_apply]
  exact congrArg (· * w2 (ix2 j o)) (hidden_apply x0 w1 b1 g var be mu p j)

end Cert.Payload

end
-- ==== Proof.KernelValue.lean ====
/-
  The array the kernel leaves, as one function of its arguments.

  The region runs over 16 points; point t loads rows 2048·t … 2048·t + 2047 of the row array (all of batch t),
  the whole of W1, W2 and the six vectors, and writes back the 2048 × 2 block of results of those rows.  So the
  32768 × 2 array the region leaves is, row 2048·b + l, the decoder's output for row l of batch b with the
  scale-and-shift normalisation; the program's last operation views those 32768 rows as [16, 2048, 2] again.
-/
import proofs.«162397_g12257836662994_cont_main3_557_8_alg».proof.Proof.Gen.KernelIdeal.Frame
import proofs.«162397_g12257836662994_cont_main3_557_8_alg».proof.Proof.Arrays
import proofs.«162397_g12257836662994_cont_main3_557_8_alg».proof.Proof.Payload
import proofs.«162397_g12257836662994_cont_main3_557_8_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat Cfg Window)

/-- One block of results: if the loaded blocks are the arguments read at batch t, the body's value at (p, o) is the
    decoder's output at (t, p, o). -/
theorem block_apply (x0 : Vec Ideal S2048x256 .f32) (w1 : Vec Ideal S256x512 .f32) (b1 g var be mu : Vec Ideal S1x512 .f32)
    (w2 : Vec Ideal S512x2 .f32) (b2 : Vec Ideal S1x2 .f32)
    (X : S16x2048x256.Idx → EReal) (W1 : S256x512.Idx → EReal) (B1 G Be Mu Vr : S512.Idx → EReal)
    (W2 : S512x2.Idx → EReal) (B2 : S2.Idx → EReal) (t : Fin 16) (p : Fin 2048) (o : Fin 2)
    (h0 : ∀ d : Fin 256, x0 (ix2 p d) = X (ix3 t p d)) (h1 : ∀ (d : Fin 256) (j : Fin 512), w1 (ix2 d j) = W1 (ix2 d j))
    (h2 : ∀ j : Fin 512, b1 (ix2 (0 : Fin 1) j) = B1 (ix1 j)) (h3 : ∀ j : Fin 512, g (ix2 (0 : Fin 1) j) = G (ix1 j))
    (h4 : ∀ j : Fin 512, be (ix2 (0 : Fin 1) j) = Be (ix1 j)) (h5 : ∀ j : Fin 512, mu (ix2 (0 : Fin 1) j) = Mu (ix1 j))
    (h6 : ∀ j : Fin 512, var (ix2 (0 : Fin 1) j) = Vr (ix1 j)) (h7 : ∀ (j : Fin 512) (o : Fin 2), w2 (ix2 j o) = W2 (ix2 j o))
    (h8 : ∀ o : Fin 2, b2 (ix2 (0 : Fin 1) o) = B2 (ix1 o)) :
    k0_pay1 (F := Ideal) (k0_pay2 x0 w1 b1 g var be mu w2) (k0_pay3 b2) (ix2 p o)
      = Cert.Spec.outScaleShift X W1 B1 G Be Mu Vr W2 B2 (ix3 t p o) := by
  rw [Cert.Payload.pay_apply]
  unfold Cert.Spec.outScaleShift Cert.Spec.act
  simp only [h0, h1, h2, h3, h4, h5, h6, h7, h8]

variable (m : (ℓ : Loc nD τ sig) → Buf (Elt Ideal) ℓ) (ρ : Dev nD → PrngReg)

/-- The decoder's output, scale-and-shift form, of the arguments as launched. -/
abbrev out3 (c : Dev nD) : S16x2048x2.Idx → EReal :=
  Cert.Spec.outScaleShift (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

theorem hrows : S16x2048x2.ShapeCasts S32768x2 := by decide

/-- The same as 32768 rows of 2. -/
abbrev outRows (c : Dev nD) : S32768x2.Idx → EReal := shapeCast S32768x2 (out3 m c) hrows

/-- Row 2048·b + l of the rows form is entry (b, l) of the output. -/
theorem outRows_apply (c : Dev nD) (b : Fin 16) (l : Fin 2048) (o : Fin 2) (r : Fin 32768) (hr : r.val = b.val * 2048 + l.val) :
    outRows m c (ix2 r o) = out3 m c (ix3 b l o) :=
  shapeCast_apply _ _ _ _ (by
    rw [Shape.rowMajor_val_three, Shape.rowMajor_val_two]
    show (b.val * 2048 + l.val) * 2 + o.val = r.val * 2 + o.val
    rw [hr])

theorem hz : (![0, 0] : Fin 2 → Nat) = fun _ => 0 := funext fun a => by fin_cases a <;> rfl

/-- The printed index maps, decided over the 16 points: the row blocks of the input and of the output are block t,
    every other window stays at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- What point t writes back is block t of the rows form. -/
theorem flushed_eq (c : Dev nD) (t : Fin cfg0.N) :
    (dats m 0 c).flushed 9 t = ((cfg0.win 9).blk t).view.read (Elt Ideal) (outRows m c) := by
  show (cfg0.win 9).cut (grid0.coords t) ((dats m 0 c).after 9 t) = _
  rw [after0_9]
  unfold out0_9
  rw [View.canon_unit_zero hz]
  simp only [View.ld_unit_zero (S := S2048x256) hz, View.ld_unit_zero (S := S256x512) hz, View.ld_unit_zero (S := S1x512) hz,
    View.ld_unit_zero (S := S512x2) hz, View.ld_unit_zero (S := S1x2) hz]
  obtain ⟨e00, e01, e10, e11, e20, e21, e30, e31, e40, e41, e50, e51, e60, e61, e70, e71, e80, e81, e90, e91⟩ := idx_facts t
  have ht : t.val < 16 := Nat.lt_of_lt_of_eq t.isLt N_0
  funext y
  obtain ⟨p, o, rfl⟩ : ∃ (p : Fin 2048) (o : Fin 2), y = ix2 p o := ⟨y 0, y 1, eq_ix2 y⟩
  obtain ⟨T, hT⟩ : ∃ T : Fin 16, T.val = t.val := ⟨⟨t.val, ht⟩, rfl⟩
  obtain ⟨r, hr⟩ : ∃ r : Fin 32768, r.val = T.val * 2048 + p.val := ⟨⟨T.val * 2048 + p.val, by have := p.isLt; have := T.isLt; omega⟩, rfl⟩
  have eR : ((cfg0.win 9).blk t).view.emb (ix2 p o) = ix2 r o := by
      funext q; apply Fin.ext
      match q with
      | ⟨0, _⟩ => show win0_9.index t (0 : Fin 2) * 2048 + 1 * (p).val = (r).val; omega
      | ⟨1, _⟩ => show win0_9.index t (1 : Fin 2) * 2 + 1 * (o).val = (o).val; omega
  show k0_pay1 (F := Ideal) (k0_pay2 (iblk m c 0 t) (iblk m c 1 t) (iblk m c 2 t) (iblk m c 3 t) (iblk m c 6 t) (iblk m c 4 t)
      (iblk m c 5 t) (iblk m c 7 t)) (k0_pay3 (iblk m c 8 t)) (ix2 p o) = outRows m c (((cfg0.win 9).blk t).view.emb (ix2 p o))
  rw [eR, outRows_apply m c T p o r hr]
  refine block_apply _ _ _ _ _ _ _ _ _ _ _ _ _ _ _ _ _ _ T p o ?_ ?_ ?_ ?_ ?_ ?_ ?_ ?_ ?_
  · intro d
    show V m c main_v0 (((cfg0.win 0).blk t).view.emb (ix2 p d)) = _
    have e : ((cfg0.win 0).blk t).view.emb (ix2 p d) = ix2 r d := by
      funext q; apply Fin.ext
      match q with
      | ⟨0, _⟩ => show win0_0.index t (0 : Fin 2) * 2048 + 1 * (p).val = (r).val; omega
      | ⟨1, _⟩ => show win0_0.index t (1 : Fin 2) * 256 + 1 * (d).val = (d).val; omega
    rw [e]
    exact Cert.KernelArrays.rows_apply m c T p d r hr
  · intro d j
    show V m c main_arg1 (((cfg0.win 1).blk t).view.emb (ix2 d j)) = _
    have e : ((cfg0.win 1).blk t).view.emb (ix2 d j) = ix2 d j := by
      funext q; apply Fin.ext
      match q with
      | ⟨0, _⟩ => show win0_1.index t (0 : Fin 2) * 256 + 1 * (d).val = (d).val; omega
      | ⟨1, _⟩ => show win0_1.index t (1 : Fin 2) * 512 + 1 * (j).val = (j).val; omega
    rw [e, V_main_arg1]
  · intro j
    show V m c main_v1 (((cfg0.win 2).blk t).view.emb (ix2 (0 : Fin 1) j)) = _
    have e : ((cfg0.win 2).blk t).view.emb (ix2 (0 : Fin 1) j) = ix2 (0 : Fin 1) j := by
      funext q; apply Fin.ext
      match q with
      | ⟨0, _⟩ => show win0_2.index t (0 : Fin 2) * 1 + 1 * ((0 : Fin 1)).val = ((0 : Fin 1)).val; omega
      | ⟨1, _⟩ => show win0_2.index t (1 : Fin 2) * 512 + 1 * (j).val = (j).val; omega
    rw [e]
    exact Cert.KernelArrays.bias1_apply m c 0 j
  · intro j
    show V m c main_v2 (((cfg0.win 3).blk t).view.emb (ix2 (0 : Fin 1) j)) = _
    have e : ((cfg0.win 3).blk t).view.emb (ix2 (0 : Fin 1) j) = ix2 (0 : Fin 1) j := by
      funext q; apply Fin.ext
      match q with
      | ⟨0, _⟩ => show win0_3.index t (0 : Fin 2) * 1 + 1 * ((0 : Fin 1)).val = ((0 : Fin 1)).val; omega
      | ⟨1, _⟩ => show win0_3.index t (1 : Fin 2) * 512 + 1 * (j).val = (j).val; omega
    rw [e]
    exact Cert.KernelArrays.gamma_apply m c 0 j
  · intro j
    show V m c main_v3 (((cfg0.win 4).blk t).view.emb (ix2 (0 : Fin 1) j)) = _
    have e : ((cfg0.win 4).blk t).view.emb (ix2 (0 : Fin 1) j) = ix2 (0 : Fin 1) j := by
      funext q; apply Fin.ext
      match q with
      | ⟨0, _⟩ => show win0_4.index t (0 : Fin 2) * 1 + 1 * ((0 : Fin 1)).val = ((0 : Fin 1)).val; omega
      | ⟨1, _⟩ => show win0_4.index t (1 : Fin 2) * 512 + 1 * (j).val = (j).val; omega
    rw [e]
    exact Cert.KernelArrays.beta_apply m c 0 j
  · intro j
    show V m c main_v4 (((cfg0.win 5).blk t).view.emb (ix2 (0 : Fin 1) j)) = _
    have e : ((cfg0.win 5).blk t).view.emb (ix2 (0 : Fin 1) j) = ix2 (0 : Fin 1) j := by
      funext q; apply Fin.ext
      match q with
      | ⟨0, _⟩ => show win0_5.index t (0 : Fin 2) * 1 + 1 * ((0 : Fin 1)).val = ((0 : Fin 1)).val; omega
      | ⟨1, _⟩ => show win0_5.index t (1 : Fin 2) * 512 + 1 * (j).val = (j).val; omega
    rw [e]
    exact Cert.KernelArrays.mean_apply m c 0 j
  · intro j
    show V m c main_v5 (((cfg0.win 6).blk t).view.emb (ix2 (0 : Fin 1) j)) = _
    have e : ((cfg0.win 6).blk t).view.emb (ix2 (0 : Fin 1) j) = ix2 (0 : Fin 1) j := by
      funext q; apply Fin.ext
      match q with
      | ⟨0, _⟩ => show win0_6.index t (0 : Fin 2) * 1 + 1 * ((0 : Fin 1)).val = ((0 : Fin 1)).val; omega
      | ⟨1, _⟩ => show win0_6.index t (1 : Fin 2) * 512 + 1 * (j).val = (j).val; omega
    rw [e]
    exact Cert.KernelArrays.var_apply m c 0 j
  · intro j o'
    show V m c main_arg7 (((cfg0.win 7).blk t).view.emb (ix2 j o')) = _
    have e : ((cfg0.win 7).blk t).view.emb (ix2 j o') = ix2 j o' := by
      funext q; apply Fin.ext
      match q with
      | ⟨0, _⟩ => show win0_7.index t (0 : Fin 2) * 512 + 1 * (j).val = (j).val; omega
      | ⟨1, _⟩ => show win0_7.index t (1 : Fin 2) * 2 + 1 * (o').val = (o').val; omega
    rw [e, V_main_arg7]
  · intro o'
    show V m c main_v6 (((cfg0.win 8).blk t).view.emb (ix2 (0 : Fin 1) o')) = _
    have e : ((cfg0.win 8).blk t).view.emb (ix2 (0 : Fin 1) o') = ix2 (0 : Fin 1) o' := by
      funext q; apply Fin.ext
      match q with
      | ⟨0, _⟩ => show win0_8.index t (0 : Fin 2) * 1 + 1 * ((0 : Fin 1)).val = ((0 : Fin 1)).val; omega
      | ⟨1, _⟩ => show win0_8.index t (1 : Fin 2) * 2 + 1 * (o').val = (o').val; omega
    rw [e]
    exact Cert.KernelArrays.bias2_apply m c 0 o'

/-- An index of the rows array is in point t's block iff each coordinate is in the block's range on its axis. -/
theorem mem_blk (t : Fin cfg0.N) (i : S32768x2.Idx) :
    i ∈ ((cfg0.win 9).blk t).view.set ↔ ∀ a : Fin 2, win0_9.index t a * S2048x2.size a ≤ (i a).val ∧ (i a).val < win0_9.index t a * S2048x2.size a + S2048x2.size a := by
  show i ∈ ((View.whole main_v7).slice (win0_9.rect t)).set ↔ _
  rw [View.set_slice_whole, Rect.mem_set_unit]
  exact Iff.rfl

/-- Every row is in the block of the point numbered by its batch: row r is written back by point r / 2048. -/
theorem cover (i : S32768x2.Idx) : ∃ t : Fin cfg0.N, (cfg0.win 9).flush t = true ∧ i ∈ ((cfg0.win 9).blk t).view.set := by
  have hi0 : (i 0).val < 32768 := (i 0).isLt
  have hi1 : (i 1).val < 2 := (i 1).isLt
  obtain ⟨t, ht⟩ : ∃ t : Fin cfg0.N, t.val = (i 0).val / 2048 :=
    ⟨⟨(i 0).val / 2048, Nat.lt_of_lt_of_eq (by omega : (i 0).val / 2048 < 16) N_0.symm⟩, rfl⟩
  obtain ⟨-, -, -, -, -, -, -, -, -, -, -, -, -, -, -, -, -, -, e90, e91⟩ := idx_facts t
  refine ⟨t, flush0_9 t, ?_⟩
  rw [mem_blk]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 2 ≤ (i 1).val ∧ (i 1).val < win0_9.index t (1 : Fin 2) * 2 + 2; omega

/-- The rows array after the run is the rows form of the output. -/
theorem final (c : Dev nD) : (dats m 0 c).arrAt 9 cfg0.N = outRows m c :=
  (dats m 0 c).arrAt_eq_of_cover 9 (outRows m c) (fun t _ => flushed_eq m c t) cover

/-- The program's result: the rows array viewed as [16, 2048, 2] again is the output itself. -/
theorem result_eq (c : Dev nD) : Pipeline.afterTail₀ cfgs (dats m) 0 (V0 m) [hostOps1] c main_v8 = out3 m c := by
  unfold Pipeline.afterTail₀
  show StableHlo.after hostOps1 _ (Proc.devRef .tc main_v8) = _
  after_results
  have hA : Pipeline.withArrays (cfgs 0).spec c (V0 m c) (fun w => (dats m 0 c).arrAt w (cfgs 0).N) (Proc.devRef .tc main_v7)
      = outRows m c := (Pipeline.withArrays_arr spec0 launch0.win.arr_inj c _ _ 9).trans (final m c)
  show (fun i => shapeCast S16x2048x2 (Pipeline.withArrays (cfgs 0).spec c (V0 m c) (fun w => (dats m 0 c).arrAt w (cfgs 0).N)
      (Proc.devRef .tc main_v7)) Gen.shapeCasts_S32768x2_S16x2048x2 i) = _
  rw [hA]
  exact shapeCast_shapeCast (out3 m c) hrows _

/-- The run, read: every weakly fair execution of the program ends with the result buffer at the decoder's output
    (scale-and-shift form) of the arguments as launched, and the arguments unchanged. -/
theorem run : θ_run defs (onTc (τ := τ) (main (F := Ideal))) ⟨m, fun _ => 0, ρ⟩ (fun r => ∀ c : Dev nD,
      r.2.mem ((c.tc : Thread nD τ).loc main_v8) = out3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v8 (Pipeline.mem_restRefs_of main_v8 (by decide) (by decide))).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c))⟩)
    (run_main m ρ)

end Cert.KernelValue

end
-- ==== Proof.lean ====
/-
  A two-layer decoder — relu (x · W1 + b1), an eval-mode batch normalisation over the 512 hidden channels, then
  · W2 + b2 — computed by a tiled kernel over the 32768 rows and by a plain array program, gives the same
  extended reals on finite inputs whose running variance is nonnegative.

  The kernel normalises by scale and shift, h · (γ · (v + ε)^(-1/2)) + (β − μ · γ · (v + ε)^(-1/2)); the reference
  centres and divides, ((h − μ) / √(v + ε)) · γ + β.  For real h, γ, β, μ and real v ≥ 0 the sum v + ε is a positive
  real and both are the same real number (Affine.lean).  Without v + ε > 0 they differ on the extended reals — for
  v + ε < 0 one side multiplies by the reciprocal root's corner value while the other divides by the root's, and a
  finite quotient by an infinity is 0 — which is why the precondition carries v ≥ 0 (Domain.lean reads it back
  from the printed predicate).  Both contractions, the biases and the clip at zero are the same expressions on the
  two sides (Spec.lean), and rounding to bf16 on the way into a contraction is the identity on the extended reals.

  The kernel's result array is read off its generated frame run: point t of the 16 writes back the block of rows of
  batch t, the blocks cover the rows array, and the last operation views the rows as [16, 2048, 2] again
  (KernelValue.lean over Payload.lean and Arrays.lean).  The reference's result is its generated run read one
  operation at a time (RefValue.lean).  The idealization rewrote nothing, so the preservation claim is trivial.
-/
import proofs.«162397_g12257836662994_cont_main3_557_8_alg».proof.Defs
import proofs.«162397_g12257836662994_cont_main3_557_8_alg».proof.Proof.Gen.Kernel
import proofs.«162397_g12257836662994_cont_main3_557_8_alg».proof.Proof.Gen.Kernel.Skeleton
import proofs.«162397_g12257836662994_cont_main3_557_8_alg».proof.Proof.Gen.Kernel.Launch
import proofs.«162397_g12257836662994_cont_main3_557_8_alg».proof.Proof.Gen.Kernel.Points
import proofs.«162397_g12257836662994_cont_main3_557_8_alg».proof.Proof.Gen.Kernel.Frame
import proofs.«162397_g12257836662994_cont_main3_557_8_alg».proof.Proof.Gen.KernelIdeal
import proofs.«162397_g12257836662994_cont_main3_557_8_alg».proof.Proof.Gen.KernelIdeal.Skeleton
import proofs.«162397_g12257836662994_cont_main3_557_8_alg».proof.Proof.Gen.KernelIdeal.Launch
import proofs.«162397_g12257836662994_cont_main3_557_8_alg».proof.Proof.Gen.KernelIdeal.Points
import proofs.«162397_g12257836662994_cont_main3_557_8_alg».proof.Proof.Gen.KernelIdeal.Frame
import proofs.«162397_g12257836662994_cont_main3_557_8_alg».proof.Proof.Gen.ReferenceIdeal
import proofs.«162397_g12257836662994_cont_main3_557_8_alg».proof.Proof.Gen.ReferenceIdeal.Run
import proofs.«162397_g12257836662994_cont_main3_557_8_alg».proof.Proof.Gen.ReferenceIdeal.Read
import proofs.«162397_g12257836662994_cont_main3_557_8_alg».proof.Proof.Gen.Pre_finite_inputs
import proofs.«162397_g12257836662994_cont_main3_557_8_alg».proof.Proof.Domain
import proofs.«162397_g12257836662994_cont_main3_557_8_alg».proof.Proof.Spec
import proofs.«162397_g12257836662994_cont_main3_557_8_alg».proof.Proof.RefValue
import proofs.«162397_g12257836662994_cont_main3_557_8_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the nine arguments, finite and with nonnegative variance, the kernel ends with the
    decoder's output in scale-and-shift form and the reference with the centre-and-divide form of the same arguments;
    under the precondition the two forms are one function. -/
theorem algebraic : Cert.algebraic_KernelIdeal_ReferenceIdeal := by
  intro m ρ m' ρ' hpre hagree
  refine ⟨fun c => Cert.KernelValue.out3 m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8, Cert.ReferenceIdeal.Read.val_main_v24_eq, Cert.RefValue.ref_eq]
  obtain ⟨h0, h1, h2, h3, h4, h5, h6⟩ := Cert.Domain.of_pre _ _ _ _ _ _ _ _ _ (hpre c)
  exact (Cert.Spec.outScaleShift_eq_outCentreDivide _ _ _ _ _ _ _ _ _ h0 h1 h2 h3 h4 h5 h6).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
